-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2048x256 : Shape := ⟨2, ![2048, 256]⟩
abbrev S2048x1 : Shape := ⟨2, ![2048, 1]⟩
abbrev S1x2048 : Shape := ⟨2, ![1, 2048]⟩
abbrev S2048x2048 : Shape := ⟨2, ![2048, 2048]⟩

abbrev nBuf : Space → Nat
  | .hbm => 12
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x1, .f32⟩
  | .local _ .vmem, ⟨5, _⟩ => ⟨S2048x1, .f32⟩
  | .local _ .vmem, ⟨6, _⟩ => ⟨S1x2048, .f32⟩
  | .local _ .vmem, ⟨7, _⟩ => ⟨S1x2048, .f32⟩
  | .local _ .vmem, ⟨8, _⟩ => ⟨S2048x2048, .f32⟩
  | .local _ .vmem, ⟨9, _⟩ => ⟨S2048x2048, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  shapeCasts_S8192x1_S1x8192 : S8192x1.ShapeCasts S1x8192
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x2048 : S2048x1.Broadcasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  inb_S2048x2048_S2048x2048_0_0 : ∀ a, (![0, 0] : Fin 2 → Nat) a + S2048x2048.size a ≤ S2048x2048.size a
  h_S2048x2048 : 0 < S2048x2048.numel
  dot_S2048x256_S2048x256_S2048x2048_1_1_0_0_n_n_wf : DotDims.WF S2048x256 S2048x256 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .f32 = 32 ∨ (Rect.block (s := S8192x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S8192x8192.size a
  hwx0_4 : ∀ i : grid0.Coords, EltTy.bits .f32 = 32 ∨ (Rect.block (s := S8192x8192) S2048x2048.size (cc0_transform_4 i) (hinb0_4 i)).WholeWords (EltTy.packing .f32)

variable [Facts₀]

def dot_S2048x256_S2048x256_S2048x2048_1_1_0_0_n_n : DotDims S2048x256 S2048x256 S2048x2048 where
  lhsContracting := [1]
  rhsContracting := [1]
  lhsNonContracting := [0]
  rhsNonContracting := [0]
  lhsBatch := []
  rhsBatch := []
  wf := dot_S2048x256_S2048x256_S2048x2048_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S2048x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 22
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S1x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x8192 : S_.BroadcastsInDim S8192x8192 (![] : Fin 0 → Fin S8192x8192.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.Distance.lean ====
/-
  The squared Euclidean distance between row `r` of one matrix and row `c` of another, written the
  expanded way, |x|² − 2·⟨x, y⟩ + |y|², over the extended reals, and the two tables built on it:
  `rbf`, exp(−d), and `rbfClamped`, exp(−max(d, 0)). Every literal stays the f32 word the programs
  spell. On rows whose entries are all real numbers the expanded form is the sum of the squared coordinate
  differences, so it is never negative and the clamp at zero does nothing: the two tables are one.
  Finiteness is needed: with an infinite entry the expanded form can be −∞ (⊤ − ⊤ = ⊥).
-/
import Idealize.ShloMosaic.PureOps.Ideal
import Idealize.ShloMosaic.PureOps.Ideal.Laws
import Idealize.ShloMosaic.Lib.ValueIdx

noncomputable section

namespace Cert.Rbf

open Idealize.ShloMosaic Idealize.ShloMosaic.ValueIdx

/-- A matrix of 8192 rows of 256 extended reals. -/
abbrev Rows : Type := (⟨2, ![8192, 256]⟩ : Shape).Idx → EReal
/-- A table with one entry per pair of rows. -/
abbrev Table : Type := (⟨2, ![8192, 8192]⟩ : Shape).Idx → EReal

/-- |x_r|²: the zero word plus the sum of the squares of row `r`. -/
def sqNorm (X : Rows) (r : Fin 8192) : EReal :=
  Ideal.ofBits .f32 0x00000000#32 + ∑ k : Fin 256, X (ix2 r k) * X (ix2 r k)

/-- ⟨x_r, y_c⟩. -/
def inner (X Y : Rows) (r c : Fin 8192) : EReal := ∑ k : Fin 256, X (ix2 r k) * Y (ix2 c k)

/-- (|x_r|² − 2·⟨x_r, y_c⟩) + |y_c|², in that order of operations. -/
def sqDist (X Y : Rows) (r c : Fin 8192) : EReal :=
  sqNorm X r - Ideal.ofBits .f32 0x40000000#32 * inner X Y r c + sqNorm Y c

/-- exp(−1 · d(x_r, y_c)). -/
def rbf (X Y : Rows) : Table := fun i =>
  Ideal.exp (Ideal.ofBits .f32 0xBF800000#32 * sqDist X Y (i 0) (i 1))

/-- exp(−1 · max(d(x_r, y_c), 0)). -/
def rbfClamped (X Y : Rows) : Table := fun i =>
  Ideal.exp (Ideal.ofBits .f32 0xBF800000#32 * max (sqDist X Y (i 0) (i 1)) (Ideal.ofBits .f32 0x00000000#32))

/-- Every entry is a real number. -/
def Finite (X : Rows) : Prop := ∀ i, ∃ x : ℝ, X i = (x : EReal)

/-- The word of `2.0` denotes the real 2. -/
theorem ofBits_two : Ideal.ofBits .f32 0x40000000#32 = ((2 : ℝ) : EReal) := by
  simp [Ideal.ofBits, Ideal.ieee, -EReal.coe_mul]; norm_num

/-- The inclusion of the reals commutes with finite sums. -/
theorem coe_sum {ι : Type} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- On real vectors: |x|² − 2⟨x, y⟩ + |y|² = Σ (x_k − y_k)². -/
theorem expanded_eq (x y : Fin 256 → ℝ) :
    ((0 : EReal) + ∑ k : Fin 256, ((x k : ℝ) : EReal) * ((x k : ℝ) : EReal))
        - ((2 : ℝ) : EReal) * ∑ k : Fin 256, ((x k : ℝ) : EReal) * ((y k : ℝ) : EReal)
        + ((0 : EReal) + ∑ k : Fin 256, ((y k : ℝ) : EReal) * ((y k : ℝ) : EReal))
      = ((∑ k : Fin 256, (x k - y k) ^ 2 : ℝ) : EReal) := by
  simp only [zero_add, ← EReal.coe_mul, coe_sum, ← EReal.coe_sub, ← EReal.coe_add]
  refine congrArg _ ?_
  rw [Finset.mul_sum, ← Finset.sum_sub_distrib, ← Finset.sum_add_distrib]
  exact Finset.sum_congr rfl fun k _ => by ring

/-- On finite rows the expanded squared distance is a sum of squares of reals: not negative. -/
theorem sqDist_nonneg (X Y : Rows) (hX : Finite X) (hY : Finite Y) (r c : Fin 8192) : 0 ≤ sqDist X Y r c := by
  choose x hx using fun k : Fin 256 => hX (ix2 r k)
  choose y hy using fun k : Fin 256 => hY (ix2 c k)
  unfold sqDist sqNorm inner
  simp only [hx, hy, Ideal.ofBits_zero_f32, ofBits_two]
  rw [expanded_eq x y]
  exact EReal.coe_nonneg.mpr (Finset.sum_nonneg fun k _ => sq_nonneg _)

/-- So on finite rows the clamp at zero is the identity, and the two tables agree. -/
theorem rbfClamped_eq_rbf (X Y : Rows) (hX : Finite X) (hY : Finite Y) : rbfClamped X Y = rbf X Y := by
  funext i
  have h : max (sqDist X Y (i 0) (i 1)) (Ideal.ofBits .f32 0x00000000#32) = sqDist X Y (i 0) (i 1) :=
    (congrArg (max (sqDist X Y (i 0) (i 1))) Ideal.ofBits_zero_f32).trans (max_eq_left (sqDist_nonneg X Y hX hY _ _))
  exact congrArg (fun d => Ideal.exp (Ideal.ofBits .f32 0xBF800000#32 * d)) h

end Cert.Rbf

end
-- ==== Proof.RefValue.lean ====
/-
  The reference's result, read one entry at a time, is the table `Cert.Rbf.rbf` of its two arguments:
  entry (r, c) is exp(−1 · ((|x_r|² − 2·⟨x_r, y_c⟩) + |y_c|²)), the norms host sums over a row started from
  the zero word, the inner product the host's contraction over the shared axis, and every broadcast reads
  the one entry of its operand that sits on row r or on row c.
-/
import proofs.«147825_j65481071395625_2_alg».proof.Proof.Gen.ReferenceIdeal.Read
import proofs.«147825_j65481071395625_2_alg».proof.Proof.Distance

noncomputable section

namespace Cert.ReferenceIdeal.RefValue

open Cert.ReferenceIdeal Cert.ReferenceIdeal.Gen Cert.ReferenceIdeal.Read
open Idealize.ShloMosaic Idealize.ShloMosaic.ValueIdx Cert.Rbf

/-- The column of |x|² broadcast along the rows of the table: entry (r, c) reads row r, coordinate k. -/
theorem leftNorm_idx (i : S8192x8192.Idx) (k : Fin 256) :
    idx_main_v1 (idx_main_v5 (idx_main_v8 i)) k = ix2 (i 0) k :=
  funext fun a => Fin.ext (by match a with | ⟨0, _⟩ => rfl | ⟨1, _⟩ => rfl)

/-- The row of |y|² broadcast down the columns of the table: entry (r, c) reads row c, coordinate k. -/
theorem rightNorm_idx (i : S8192x8192.Idx) (k : Fin 256) :
    idx_main_v3 (idx_main_v10 (idx_main_v11 i)) k = ix2 (i 1) k :=
  funext fun a => Fin.ext (by match a with | ⟨0, _⟩ => rfl | ⟨1, _⟩ => rfl)

/-- The contraction's left operand at entry (r, c): row r. -/
theorem left_idx (i : S8192x8192.Idx) (k : Fin 256) : lidx_main_v4 i k = ix2 (i 0) k :=
  funext fun a => Fin.ext (by match a with | ⟨0, _⟩ => rfl | ⟨1, _⟩ => rfl)

/-- Its right operand: row c. -/
theorem right_idx (i : S8192x8192.Idx) (k : Fin 256) : ridx_main_v4 i k = ix2 (i 1) k :=
  funext fun a => Fin.ext (by match a with | ⟨0, _⟩ => rfl | ⟨1, _⟩ => rfl)

/-- The reference's last stage is the unclamped table. -/
theorem result_eq (x0 x1 : (⟨S8192x256, .f32⟩ : BufTy).Contents (Elt Ideal)) :
    val_main_v15 (F := Ideal) x0 x1 = rbf x0 x1 := by
  funext i
  rw [val_main_v15_apply, val_main_v14_apply, val_main_v13_apply, val_main_cst_2_apply, val_main_v12_apply,
    val_main_v9_apply, val_main_v8_apply, val_main_v5_apply, val_main_v1_apply, val_main_v7_apply, val_main_v6_apply,
    val_main_cst_1_apply, val_main_v4_apply, val_main_v11_apply, val_main_v10_apply, val_main_v3_apply]
  simp only [val_main_v0_apply, val_main_v2_apply, val_main_cst_apply, val_main_cst_0_apply, leftNorm_idx, rightNorm_idx,
    left_idx, right_idx, Ideal.hostUnary_exp_def, Ideal.mulf_def, Ideal.subf_def, Ideal.addf_def, Ideal.ofBits_def]
  rfl

end Cert.ReferenceIdeal.RefValue

end
-- ==== Proof.Payload.lean ====
/-
  What the kernel body computes for one tile, read one entry at a time. From a 2048×256 block `x0` of the
  first matrix, a 2048×256 block `x1` of the second, a column `x2` of 2048 numbers and a row `x3` of 2048
  numbers, entry (p, q) of the 2048×2048 result is
      exp(−1 · max((x2[p] − 2 · Σ_k x0[p,k] · x1[q,k]) + x3[q], 0)).
  The matrix product contracts the second axis of both blocks into a zero accumulator, so it is the plain sum
  of products; the narrowing of its operands to bf16 changes nothing over the extended reals; the column is
  broadcast along each row and the row down each column.
-/
import proofs.«147825_j65481071395625_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-- The product's left operand index at result entry `i`, on the kept axis: the result's row. -/
theorem lhs_kept (i : S2048x2048.Idx) (q : dot_S2048x256_S2048x256_S2048x2048_1_1_0_0_n_n.contr.Idx) :
    (dot_S2048x256_S2048x256_S2048x2048_1_1_0_0_n_n.lhsIdx i q 0).val = (i 0).val := by
  unfold DotDims.lhsIdx
  rw [dif_neg (show ¬(0 : Fin S2048x256.rank) ∈ dot_S2048x256_S2048x256_S2048x2048_1_1_0_0_n_n.lhsBatch by decide),
    dif_pos (show (0 : Fin S2048x256.rank) ∈ dot_S2048x256_S2048x256_S2048x2048_1_1_0_0_n_n.lhsNonContracting by decide)]
  rfl

/-- On the contracted axis: the summation index. -/
theorem lhs_contr (i : S2048x2048.Idx) (q : dot_S2048x256_S2048x256_S2048x2048_1_1_0_0_n_n.contr.Idx) :
    (dot_S2048x256_S2048x256_S2048x2048_1_1_0_0_n_n.lhsIdx i q 1).val = (q ⟨0, by decide⟩).val :=
  dot_S2048x256_S2048x256_S2048x2048_1_1_0_0_n_n.lhsIdx_val_of_single rfl i q

/-- The right operand index on its kept axis: the result's column. -/
theorem rhs_kept (i : S2048x2048.Idx) (q : dot_S2048x256_S2048x256_S2048x2048_1_1_0_0_n_n.contr.Idx) :
    (dot_S2048x256_S2048x256_S2048x2048_1_1_0_0_n_n.rhsIdx i q 0).val = (i 1).val := by
  unfold DotDims.rhsIdx
  rw [dif_neg (show ¬(0 : Fin S2048x256.rank) ∈ dot_S2048x256_S2048x256_S2048x2048_1_1_0_0_n_n.rhsBatch by decide),
    dif_pos (show (0 : Fin S2048x256.rank) ∈ dot_S2048x256_S2048x256_S2048x2048_1_1_0_0_n_n.rhsNonContracting by decide)]
  rfl

/-- On the contracted axis: the summation index. -/
theorem rhs_contr (i : S2048x2048.Idx) (q : dot_S2048x256_S2048x256_S2048x2048_1_1_0_0_n_n.contr.Idx) :
    (dot_S2048x256_S2048x256_S2048x2048_1_1_0_0_n_n.rhsIdx i q 1).val = (q ⟨0, by decide⟩).val :=
  dot_S2048x256_S2048x256_S2048x2048_1_1_0_0_n_n.rhsIdx_val_of_single rfl i q

/-- The tile's matrix product at entry (p, q): Σ_k x0[p,k] · x1[q,k]. -/
theorem cross_apply (x0 x1 : Vec Ideal S2048x256 .f32) (p q : Fin 2048) :
    matmul dot_S2048x256_S2048x256_S2048x2048_1_1_0_0_n_n none (truncf .bf16 x0 bitsLt_bf16_f32) (truncf .bf16 x1 bitsLt_bf16_f32)
        (constant (F := Ideal) S2048x2048 .f32 0x00000000#32) (ix2 p q)
      = ∑ k : Fin 256, x0 (ix2 p k) * x1 (ix2 q k) := by
  show FloatOps.matmul dot_S2048x256_S2048x256_S2048x2048_1_1_0_0_n_n none _ _ (constant S2048x2048 .f32 0x00000000#32) (ix2 p q) = _
  rw [Ideal.matmul_constant_zero_apply,
    ← Equiv.sum_comp (contrEquiv1 dot_S2048x256_S2048x256_S2048x2048_1_1_0_0_n_n 256 rfl rfl).symm]
  refine Finset.sum_congr rfl fun k _ => ?_
  have hk := contrEquiv1_symm_val dot_S2048x256_S2048x256_S2048x2048_1_1_0_0_n_n 256 rfl rfl k
  have el : dot_S2048x256_S2048x256_S2048x2048_1_1_0_0_n_n.lhsIdx (ix2 p q)
      ((contrEquiv1 dot_S2048x256_S2048x256_S2048x2048_1_1_0_0_n_n 256 rfl rfl).symm k) = ix2 p k :=
    funext fun a => Fin.ext (by
      match a with
      | ⟨0, _⟩ => exact lhs_kept _ _
      | ⟨1, _⟩ => exact (lhs_contr _ _).trans hk)
  have er : dot_S2048x256_S2048x256_S2048x2048_1_1_0_0_n_n.rhsIdx (ix2 p q)
      ((contrEquiv1 dot_S2048x256_S2048x256_S2048x2048_1_1_0_0_n_n 256 rfl rfl).symm k) = ix2 q k :=
    funext fun a => Fin.ext (by
      match a with
      | ⟨0, _⟩ => exact rhs_kept _ _
      | ⟨1, _⟩ => exact (rhs_contr _ _).trans hk)
  rw [el, er]
  rfl

/-- The column of 2048 numbers broadcast along the rows: entry (p, q) reads its p-th number. -/
theorem column_apply (x2 : Vec Ideal S2048x1 .f32) (p q : Fin 2048) :
    broadcastTo S2048x2048 (shapeCast S2048x1 x2 shapeCasts_S2048x1_S2048x1) broadcasts_S2048x1_S2048x2048 (ix2 p q)
      = x2 (ix2 p 0) := by
  rw [shapeCast_self]
  exact broadcastTo_apply x2 broadcasts_S2048x1_S2048x2048 (ix2 p q) (ix2 p 0) (fun a => match a with
    | ⟨0, _⟩ => by show p.val = if (2048 : Nat) = 1 then 0 else p.val; rw [if_neg (by decide)]
    | ⟨1, _⟩ => by show 0 = if (1 : Nat) = 1 then 0 else q.val; rw [if_pos rfl])

/-- The row of 2048 numbers broadcast down the columns: entry (p, q) reads its q-th number. -/
theorem row_apply (x3 : Vec Ideal S1x2048 .f32) (p q : Fin 2048) :
    broadcastTo S2048x2048 (shapeCast S1x2048 x3 shapeCasts_S1x2048_S1x2048) broadcasts_S1x2048_S2048x2048 (ix2 p q)
      = x3 (ix2 0 q) := by
  rw [shapeCast_self]
  exact broadcastTo_apply x3 broadcasts_S1x2048_S2048x2048 (ix2 p q) (ix2 0 q) (fun a => match a with
    | ⟨0, _⟩ => by show 0 = if (1 : Nat) = 1 then 0 else p.val; rw [if_pos rfl]
    | ⟨1, _⟩ => by show q.val = if (2048 : Nat) = 1 then 0 else q.val; rw [if_neg (by decide)])

/-- THE TILE at entry (p, q). -/
theorem tile_apply (x0 x1 : Vec Ideal S2048x256 .f32) (x2 : Vec Ideal S2048x1 .f32) (x3 : Vec Ideal S1x2048 .f32) (p q : Fin 2048) :
    k0_pay1 x0 x1 x2 x3 (ix2 p q)
      = Ideal.exp (Ideal.ofBits .f32 0xBF800000#32
          * max (x2 (ix2 p 0) - Ideal.ofBits .f32 0x40000000#32 * (∑ k : Fin 256, x0 (ix2 p k) * x1 (ix2 q k)) + x3 (ix2 0 q))
              (Ideal.ofBits .f32 0x00000000#32)) := by
  rw [← cross_apply x0 x1 p q, ← column_apply x2 p q, ← row_apply x3 p q]
  rfl

end Cert.KernelIdeal.Tile

end
-- ==== Proof.Norms.lean ====
/-
  The two arrays of squared norms the host computes before the kernel is launched, as the kernel's windows find
  them, read one entry at a time. The column array (8192×1) holds at (r, 0) the squared norm of row r of the first
  argument; the row array (1×8192), the same column of the second argument re-laid as a row, holds at (0, c) the
  squared norm of row c of the second argument. Each is a host sum over a row of the argument's squares, started
  from the zero word.
-/
import proofs.«147825_j65481071395625_2_alg».proof.Proof.Gen.KernelIdeal.Frame
import proofs.«147825_j65481071395625_2_alg».proof.Proof.Distance
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Norms

open Cert.KernelIdeal Cert.KernelIdeal.Gen Idealize.ShloMosaic Idealize.ShloMosaic.ValueIdx
open Idealize.ShloMosaic.TcCoe Idealize.SL.Sem Idealize.ShloMosaic.StableHlo Cert.Rbf

variable (m : (ℓ : Loc nD τ sig) → Buf (Elt Ideal) ℓ)

/-- The host's sum over a row of the squares of a matrix, at row `r`: the squared norm of that row. -/
theorem rowSquares_apply (A : S8192x256.Idx → EReal) (r : Fin 8192) :
    Host.reduceAdd (mulf (F := Ideal) (φ := .f32) A A) (constant (F := Ideal) S_ .f32 0x00000000#32)
        reducesTo_S8192x256_S8192_d1 h_S_ (ix1 r) = sqNorm A r := by
  simp only [Host.reduceAdd, Ideal.hostReduceAdd_def]
  rw [Ideal.hostReduceAdd_single reducesTo_S8192x256_S8192_d1 (by decide)]
  unfold sqNorm
  refine congrArg₂ (· + ·) rfl (Finset.sum_congr rfl fun k _ => ?_)
  exact congrArg (fun i => A i * A i) (funext fun a => Fin.ext (by match a with | ⟨0, _⟩ => rfl | ⟨1, _⟩ => rfl))

/-- The column array is the first argument's row sums of squares, each set in a row of its own. -/
theorem V_leftNorm (c : Dev nD) :
    (V m c main_v2 : S8192x1.Idx → EReal)
      = broadcastInDim S8192x1 ![0] bcast_S8192_S8192x1_0
          (Host.reduceAdd (mulf (m ((c : Thread nD τ).loc main_arg0)) (m ((c : Thread nD τ).loc main_arg0)))
            (constant (F := Ideal) S_ .f32 0x00000000#32) reducesTo_S8192x256_S8192_d1 h_S_) := by
  dsimp only [Gen.V, Gen.hostOps0]; after_results

/-- The row array is the second argument's row sums of squares, set in a column and re-laid as one row. -/
theorem V_rightNorm (c : Dev nD) :
    (V m c main_v6 : S1x8192.Idx → EReal)
      = shapeCast S1x8192 (broadcastInDim S8192x1 ![0] bcast_S8192_S8192x1_0
          (Host.reduceAdd (mulf (m ((c : Thread nD τ).loc main_arg1)) (m ((c : Thread nD τ).loc main_arg1)))
            (constant (F := Ideal) S_ .f32 0x00000000#32) reducesTo_S8192x256_S8192_d1 h_S_)) shapeCasts_S8192x1_S1x8192 := by
  dsimp only [Gen.V, Gen.hostOps0]; after_results <;> rfl

/-- Entry (r, 0) of the column array: |x_r|². -/
theorem leftNorm_apply (c : Dev nD) (r : Fin 8192) :
    (V m c main_v2 : S8192x1.Idx → EReal) (ix2 r (0 : Fin 1)) = sqNorm (m ((c : Thread nD τ).loc main_arg0)) r := by
  refine (congrFun (V_leftNorm m c) (ix2 r (0 : Fin 1))).trans ?_
  refine (broadcastInDim_apply _ bcast_S8192_S8192x1_0 _ (ix2 r (0 : Fin 1)) (ix1 r) (fun a => match a with
    | ⟨0, _⟩ => by show r.val = if (8192 : Nat) = 1 then 0 else r.val; rw [if_neg (by decide)])).trans ?_
  exact rowSquares_apply _ r

/-- Entry (0, c) of the row array: |y_c|². Re-laying a column of 8192 as a row of 8192 keeps the position. -/
theorem rightNorm_apply (c : Dev nD) (q : Fin 8192) :
    (V m c main_v6 : S1x8192.Idx → EReal) (ix2 (0 : Fin 1) q) = sqNorm (m ((c : Thread nD τ).loc main_arg1)) q := by
  refine (congrFun (V_rightNorm m c) (ix2 (0 : Fin 1) q)).trans ?_
  refine (shapeCast_apply _ shapeCasts_S8192x1_S1x8192 (ix2 (0 : Fin 1) q) (ix2 q (0 : Fin 1)) ?_).trans ?_
  · rw [Shape.rowMajor_val_two, Shape.rowMajor_val_two]
    show q.val * 1 + 0 = 0 * 8192 + q.val
    omega
  refine (broadcastInDim_apply _ bcast_S8192_S8192x1_0 _ (ix2 q (0 : Fin 1)) (ix1 q) (fun a => match a with
    | ⟨0, _⟩ => by show q.val = if (8192 : Nat) = 1 then 0 else q.val; rw [if_neg (by decide)])).trans ?_
  exact rowSquares_apply _ q

end Cert.KernelIdeal.Norms

end
-- ==== Proof.KernelTable.lean ====
/-
  The kernel's result array after its run is the clamped table of the two argument matrices.
  The grid has 4×4 points; point (a, b) reads rows 2048a … 2048a+2047 of the first matrix, rows
  2048b … 2048b+2047 of the second, the matching 2048 entries of the column of squared norms and of the row of
  squared norms, and writes the 2048×2048 tile whose entry (p, q) is table entry (2048a + p, 2048b + q). The
  sixteen tiles fill the 8192×8192 array, each index lying in the tile of its two quotients by 2048.
-/
import proofs.«147825_j65481071395625_2_alg».proof.Proof.Gen.KernelIdeal.Value
import proofs.«147825_j65481071395625_2_alg».proof.Proof.Payload
import proofs.«147825_j65481071395625_2_alg».proof.Proof.Norms
import proofs.«147825_j65481071395625_2_alg».proof.Proof.Distance

noncomputable section

namespace Cert.KernelIdeal.Table

open Cert.KernelIdeal Cert.KernelIdeal.Gen Idealize.ShloMosaic Idealize.ShloMosaic.ValueIdx
open Idealize.ShloMosaic.TcCoe Idealize.SL.Sem Cert.Rbf
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-- Row `p` of the `b`-th band of 2048 rows (of four). -/
def bandRow (b : Nat) (hb : b ≤ 3) (p : Fin 2048) : Fin 8192 := ⟨b * 2048 + p.val, by have := p.isLt; omega⟩

/-- ONE TILE IS A TILE OF THE TABLE. If the four loaded blocks are band `a` of the first matrix, band `b` of the
    second, and the squared norms of those bands' rows, then tile entry `j` is the clamped table's entry at any
    index `i` with coordinates (2048a + j₀, 2048b + j₁). -/
theorem tile_eq (A0 A1 : Rows) (x0 x1 : Vec Ideal S2048x256 .f32) (x2 : Vec Ideal S2048x1 .f32) (x3 : Vec Ideal S1x2048 .f32)
    (a b : Nat) (ha : a ≤ 3) (hb : b ≤ 3) (j : S2048x2048.Idx) (i : S8192x8192.Idx)
    (hi0 : (i 0).val = a * 2048 + (j 0).val) (hi1 : (i 1).val = b * 2048 + (j 1).val)
    (h0 : ∀ (p : Fin 2048) (k : Fin 256), x0 (ix2 p k) = A0 (ix2 (bandRow a ha p) k))
    (h1 : ∀ (q : Fin 2048) (k : Fin 256), x1 (ix2 q k) = A1 (ix2 (bandRow b hb q) k))
    (h2 : ∀ p : Fin 2048, x2 (ix2 p (0 : Fin 1)) = sqNorm A0 (bandRow a ha p))
    (h3 : ∀ q : Fin 2048, x3 (ix2 (0 : Fin 1) q) = sqNorm A1 (bandRow b hb q)) :
    k0_pay1 x0 x1 x2 x3 j = rbfClamped A0 A1 i := by
  obtain ⟨p, q, rfl⟩ : ∃ (p q : Fin 2048), j = ix2 p q := ⟨j 0, j 1, eq_ix2 j⟩
  have e0 : i 0 = bandRow a ha p := Fin.ext hi0
  have e1 : i 1 = bandRow b hb q := Fin.ext hi1
  rw [Tile.tile_apply, h2, h3]
  simp only [h0, h1]
  unfold rbfClamped sqDist Cert.Rbf.inner
  rw [e0, e1]

/-- How the five windows move over the grid (decided over its 16 points): the first matrix's block and the column of
    norms follow the tile's row band, the second matrix's block and the row of norms its column band, and a band
    number is at most 3. -/
theorem idx_facts : ∀ t : Fin cfg0.N,
      win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 3 ∧ win0_4.index t (1 : Fin 2) ≤ 3 :=
  (by decide +kernel : ∀ t : Fin grid0.N, _)

/-- Every pair of bands is some point's. -/
theorem idx_onto : ∀ (a b : Fin 4), ∃ t : Fin cfg0.N, win0_4.index t = ![a.val, b.val] :=
  (by decide +kernel : ∀ (a b : Fin 4), ∃ t : Fin grid0.N, win0_4.index t = ![a.val, b.val])

/-- WHAT POINT `t` WRITES BACK is its tile of the clamped table of the two arguments. -/
theorem flushed_eq (c : Dev nD) (t : Fin cfg0.N) :
    (dats m 0 c).flushed 4 t = ((cfg0.win 4).blk t).view.read (Elt Ideal)
      (rbfClamped (m ((c : Thread nD τ).loc main_arg0)) (m ((c : Thread nD τ).loc main_arg1))) := by
  rw [Value.flushed4]
  unfold out0_4
  rw [View.canon_unit_zero zeros]
  simp only [View.ld_unit_zero (S := S2048x256) zeros, View.ld_unit_zero (S := S2048x1) zeros, View.ld_unit_zero (S := S1x2048) zeros]
  obtain ⟨e00, e01, e10, e11, e20, e21, e30, e31, b0, b1⟩ := idx_facts t
  funext j
  show k0_pay1 (iblk m c 0 t) (iblk m c 1 t) (iblk m c 2 t) (iblk m c 3 t) j
    = rbfClamped (m ((c : Thread nD τ).loc main_arg0)) (m ((c : Thread nD τ).loc main_arg1)) (((cfg0.win 4).blk t).view.emb j)
  refine tile_eq _ _ (iblk m c 0 t) (iblk m c 1 t) (iblk m c 2 t) (iblk m c 3 t)
    (win0_4.index t (0 : Fin 2)) (win0_4.index t (1 : Fin 2)) b0 b1 j _ ?_ ?_ ?_ ?_ ?_ ?_
  · show win0_4.index t (0 : Fin 2) * 2048 + 1 * (j 0).val = win0_4.index t (0 : Fin 2) * 2048 + (j 0).val
    omega
  · show win0_4.index t (1 : Fin 2) * 2048 + 1 * (j 1).val = win0_4.index t (1 : Fin 2) * 2048 + (j 1).val
    omega
  · intro p k
    show V m c main_arg0 (((cfg0.win 0).blk t).view.emb (ix2 p k)) = _
    refine (congrFun (V_main_arg0 m c) _).trans (congrArg _ ?_)
    funext a; apply Fin.ext
    match a with
    | ⟨0, _⟩ => show win0_0.index t (0 : Fin 2) * 2048 + 1 * p.val = win0_4.index t (0 : Fin 2) * 2048 + p.val; omega
    | ⟨1, _⟩ => show win0_0.index t (1 : Fin 2) * 256 + 1 * k.val = k.val; omega
  · intro q k
    show V m c main_arg1 (((cfg0.win 1).blk t).view.emb (ix2 q k)) = _
    refine (congrFun (V_main_arg1 m c) _).trans (congrArg _ ?_)
    funext a; apply Fin.ext
    match a with
    | ⟨0, _⟩ => show win0_1.index t (0 : Fin 2) * 2048 + 1 * q.val = win0_4.index t (1 : Fin 2) * 2048 + q.val; omega
    | ⟨1, _⟩ => show win0_1.index t (1 : Fin 2) * 256 + 1 * k.val = k.val; omega
  · intro p
    show (V m c main_v2 : S8192x1.Idx → EReal) (((cfg0.win 2).blk t).view.emb (ix2 p (0 : Fin 1))) = _
    refine (congrArg (V m c main_v2 : S8192x1.Idx → EReal) ?_).trans (Norms.leftNorm_apply m c _)
    funext a; apply Fin.ext
    match a with
    | ⟨0, _⟩ => show win0_2.index t (0 : Fin 2) * 2048 + 1 * p.val = win0_4.index t (0 : Fin 2) * 2048 + p.val; omega
    | ⟨1, _⟩ => show win0_2.index t (1 : Fin 2) * 1 + 1 * 0 = 0; omega
  · intro q
    show (V m c main_v6 : S1x8192.Idx → EReal) (((cfg0.win 3).blk t).view.emb (ix2 (0 : Fin 1) q)) = _
    refine (congrArg (V m c main_v6 : S1x8192.Idx → EReal) ?_).trans (Norms.rightNorm_apply m c _)
    funext a; apply Fin.ext
    match a with
    | ⟨0, _⟩ => show win0_3.index t (0 : Fin 2) * 1 + 1 * 0 = 0; omega
    | ⟨1, _⟩ => show win0_3.index t (1 : Fin 2) * 2048 + 1 * q.val = win0_4.index t (1 : Fin 2) * 2048 + q.val; omega

/-- An index of the array is in point `t`'s tile iff each coordinate is in the tile's range on its axis. -/
theorem mem_blk (t : Fin cfg0.N) (i : S8192x8192.Idx) :
    i ∈ ((cfg0.win 4).blk t).view.set ↔ ∀ a : Fin 2, win0_4.index t a * S2048x2048.size a ≤ (i a).val
      ∧ (i a).val < win0_4.index t a * S2048x2048.size a + S2048x2048.size a := by
  show i ∈ ((View.whole main_v7).slice (win0_4.rect t)).set ↔ _
  rw [View.set_slice_whole, Rect.mem_set_unit]
  exact Iff.rfl

/-- The sixteen tiles fill the array: index (r, c) lies in the tile of the bands r / 2048 and c / 2048. -/
theorem cover (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto ⟨(i 0).val / 2048, by omega⟩ ⟨(i 1).val / 2048, by omega⟩
  have q0 : win0_4.index t (0 : Fin 2) = (i 0).val / 2048 := congrFun ht 0
  have q1 : win0_4.index t (1 : Fin 2) = (i 1).val / 2048 := congrFun ht 1
  refine ⟨t, flush0_4 t, ?_⟩
  rw [mem_blk]
  intro a
  match a with
  | ⟨0, _⟩ =>
    show win0_4.index t (0 : Fin 2) * 2048 ≤ (i 0).val ∧ (i 0).val < win0_4.index t (0 : Fin 2) * 2048 + 2048
    omega
  | ⟨1, _⟩ =>
    show win0_4.index t (1 : Fin 2) * 2048 ≤ (i 1).val ∧ (i 1).val < win0_4.index t (1 : Fin 2) * 2048 + 2048
    omega

/-- THE ARRAY after the run: the clamped table of the two arguments. -/
theorem final (c : Dev nD) :
    (dats m 0 c).arrAt 4 cfg0.N = rbfClamped (m ((c : Thread nD τ).loc main_arg0)) (m ((c : Thread nD τ).loc main_arg1)) :=
  (dats m 0 c).arrAt_eq_of_cover 4 _ (fun t _ => flushed_eq m c t) cover

/-- The kernel's run: every weakly fair execution ends with the result at the clamped table, the arguments unchanged. -/
theorem run : θ_run defs (onTc (τ := τ) (main (F := Ideal))) ⟨m, fun _ => 0, ρ⟩ fun r => ∀ c : Dev nD,
      r.2.mem ((c : Thread nD τ).loc main_v7) = rbfClamped (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Table

end
-- ==== Proof.RealEntries.lean ====
/-
  From the precondition to real entries. The precondition says, of both argument matrices, that every entry has
  absolute value below +∞ (a conjunction over all entries of each matrix, then of the two matrices). Over the
  extended reals |x| = max(x, −x) is below +∞ exactly when x is neither +∞ nor −∞, that is, when x is a real number.
-/
import proofs.«147825_j65481071395625_2_alg».proof.Pre_finite_inputs
import proofs.«147825_j65481071395625_2_alg».proof.Proof.Gen.Pre_finite_inputs
import proofs.«147825_j65481071395625_2_alg».proof.Proof.Distance
import Idealize.ShloMosaic.Lib.ReduceAll
import Idealize.ShloMosaic.Lib.Affine
import Idealize.ShloMosaic.PureOps.Ideal.Laws

noncomputable section

namespace Cert.Pre_finite_inputs.Entries

open Cert.Pre_finite_inputs Idealize.ShloMosaic Cert.Rbf

/-- The one-entry shape has one index. -/
instance : Subsingleton S_.Idx := ⟨fun a b => funext fun d => d.elim0⟩

/-- An extended real whose absolute value is below the word of +∞ is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  by_cases h1 : x = ⊤
  · subst h1; simp [Ideal.cmp] at h
  by_cases h2 : x = ⊥
  · subst h2; simp [Ideal.cmp] at h
  exact ⟨x.toReal, (EReal.coe_toReal h1 h2).symm⟩

/-- Where the precondition holds, both matrices have only real entries. -/
theorem finite_of_pre (X Y : FVec Ideal S8192x256 .f32) (h : fn (F := Ideal) X Y = fun _ => 1#1) :
    Finite X ∧ Finite Y := by
  have h0 := congrFun h ValueIdx.ix0
  dsimp only [fn] at h0
  obtain ⟨hx, hy⟩ := IntOp.andi_eq_one.1 h0
  exact ⟨fun i => real_of_abs_lt_inf (X i) (Host.reduce_andi_all _ _ _ _ _ hx i),
    fun i => real_of_abs_lt_inf (Y i) (Host.reduce_andi_all _ _ _ _ _ hy i)⟩

end Cert.Pre_finite_inputs.Entries

end
-- ==== Proof.lean ====
/-
  A Gaussian (RBF) kernel table: for two matrices x, y of 8192 rows of 256 numbers, entry (r, c) of the result is
  exp(−d(r, c)) with d(r, c) = |x_r|² − 2·⟨x_r, y_c⟩ + |y_c|², the squared distance between row r of x and row c
  of y in its expanded form.

  The tiled program computes the two families of squared norms once on the host, then, tile by tile over a 4×4 grid
  of 2048×2048 tiles, forms the inner products by one matrix product per tile (its operands narrowed to bf16, which
  over the extended reals is no change), assembles d, CLAMPS it from below at zero, and exponentiates. The reference
  computes the same d for the whole table at once and exponentiates it without a clamp.

  The two agree because, on matrices of real numbers, d(r, c) = Σ_k (x_{r,k} − y_{c,k})² ≥ 0, so the clamp is the
  identity (Proof/Distance.lean). That needs the precondition: with an infinite entry d can be −∞. The pieces:
    Proof/Distance.lean     the tables `rbf` and `rbfClamped`, and their equality on finite matrices;
    Proof/RefValue.lean     the reference's result is `rbf` of its arguments;
    Proof/Payload.lean      one tile of the tiled program, entry by entry;
    Proof/Norms.lean        the host-computed squared norms, entry by entry;
    Proof/KernelTable.lean  the tiled program's result is `rbfClamped` of its arguments;
    Proof/RealEntries.lean  the precondition makes every entry of both matrices a real number.
  Each program runs to completion leaving its arguments as they were: for the tiled program (word-level and
  idealized) that is the generated frame; for the reference it is its run with the result forgotten. Nothing was
  rewritten between the word-level program and its idealization, so that conjunct is trivial.
-/
import proofs.«147825_j65481071395625_2_alg».proof.Defs
import proofs.«147825_j65481071395625_2_alg».proof.Proof.Gen.Kernel
import proofs.«147825_j65481071395625_2_alg».proof.Proof.Gen.Kernel.Frame
import proofs.«147825_j65481071395625_2_alg».proof.Proof.Gen.KernelIdeal
import proofs.«147825_j65481071395625_2_alg».proof.Proof.Gen.KernelIdeal.Frame
import proofs.«147825_j65481071395625_2_alg».proof.Proof.Gen.KernelIdeal.Value
import proofs.«147825_j65481071395625_2_alg».proof.Proof.Gen.ReferenceIdeal
import proofs.«147825_j65481071395625_2_alg».proof.Proof.Gen.ReferenceIdeal.Run
import proofs.«147825_j65481071395625_2_alg».proof.Proof.Gen.ReferenceIdeal.Read
import proofs.«147825_j65481071395625_2_alg».proof.Proof.Gen.Pre_finite_inputs
import proofs.«147825_j65481071395625_2_alg».proof.Proof.Distance
import proofs.«147825_j65481071395625_2_alg».proof.Proof.RefValue
import proofs.«147825_j65481071395625_2_alg».proof.Proof.KernelTable
import proofs.«147825_j65481071395625_2_alg».proof.Proof.RealEntries
import Idealize.ShloMosaic.Adequacy
import Idealize.ShloMosaic.Init

noncomputable section

namespace Cert.Proof

open Idealize.ShloMosaic Idealize.ShloMosaic.TcCoe Idealize.SL.Sem Cert.Rbf

/-- The word-level tiled program terminates without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree and are finite, the tiled program ends at the clamped table and the reference at the
    unclamped one; on finite matrices the squared distance is not negative, so the two tables are one. -/
theorem algebraic : Cert.algebraic_KernelIdeal_ReferenceIdeal := by
  intro m ρ m' ρ' hpre hagree
  refine ⟨_, Cert.KernelIdeal.Table.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq, (hagree c).1, (hagree c).2]
  obtain ⟨hX, hY⟩ := Cert.Pre_finite_inputs.Entries.finite_of_pre _ _ (hpre c)
  exact (rbfClamped_eq_rbf _ _ hX hY).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
